-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S8x256 : Shape := ⟨2, ![8, 256]⟩
abbrev S8 : Shape := ⟨1, ![8]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel
  bcast_S_S8x256 : S_.BroadcastsInDim S8x256 (![] : Fin 0 → Fin S8x256.rank)
  reducesTo_S8x256_S_d0_1 : S8x256.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S16x2048x256 .f32) (main_arg1 : FVec F S8x256 .f32) (main_arg2 : FVec F S8 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S16x2048x256 : Shape := ⟨3, ![16, 2048, 256]⟩
abbrev S8x256 : Shape := ⟨2, ![8, 256]⟩
abbrev S8 : Shape := ⟨1, ![8]⟩
abbrev S16x8x256 : Shape := ⟨3, ![16, 8, 256]⟩
abbrev S2x2048x256 : Shape := ⟨3, ![2, 2048, 256]⟩
abbrev S2x8x256 : Shape := ⟨3, ![2, 8, 256]⟩
abbrev S1x2048x256 : Shape := ⟨3, ![1, 2048, 256]⟩
abbrev S2048x256 : Shape := ⟨2, ![2048, 256]⟩
abbrev S2048 : Shape := ⟨1, ![2048]⟩
abbrev S2048x1 : Shape := ⟨2, ![2048, 1]⟩
abbrev S1x2048 : Shape := ⟨2, ![1, 2048]⟩
abbrev S8x2048 : Shape := ⟨2, ![8, 2048]⟩
abbrev S8x1 : Shape := ⟨2, ![8, 1]⟩
abbrev S1x8x256 : Shape := ⟨3, ![1, 8, 256]⟩
abbrev S16x2048 : Shape := ⟨2, ![16, 2048]⟩

abbrev nBuf : Space → Nat
  | .hbm => 5
  | .vmem => 6
  | .smem => 0
  | _ => 0

abbrev bufTy : (tb : Table) → Fin (tcTables nBuf tb) → BufTy
  | .hbm, ⟨0, _⟩ => ⟨S16x2048x256, .f32⟩
  | .hbm, ⟨1, _⟩ => ⟨S8x256, .f32⟩
  | .hbm, ⟨2, _⟩ => ⟨S8, .f32⟩
  | .hbm, ⟨3, _⟩ => ⟨S16x8x256, .f32⟩
  | .hbm, ⟨4, _⟩ => ⟨S16x2048, .f32⟩
  | .local _ .vmem, ⟨0, _⟩ => ⟨S2x2048x256, .f32⟩
  | .local _ .vmem, ⟨1, _⟩ => ⟨S2x2048x256, .f32⟩
  | .local _ .vmem, ⟨2, _⟩ => ⟨S8x256, .f32⟩
  | .local _ .vmem, ⟨3, _⟩ => ⟨S8, .f32⟩
  | .local _ .vmem, ⟨4, _⟩ => ⟨S2x8x256, .f32⟩
  | .local _ .vmem, ⟨5, _⟩ => ⟨S2x8x256, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c2_i32 : BitVec 32 := 2#32
  let v4 : BitVec 32 := Scalar.addi c0_i32 c2_i32
  let c1_i32 : BitVec 32 := 1#32
  ⟨c0_i32, v4, c1_i32⟩
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let v5 : Index := Scalar.indexCast arg5
  let c0_3 : Index := 0#32
  let c0_4 : Index := 0#32
  ![v5.toNat, 0, 0]
def k0_off2 (k0_t1 : Fin k0_t1_loop.trips) : Fin 3 → Nat :=
  let c0_i32 : BitVec 32 := 0#32
  let c1_i32 : BitVec 32 := 1#32
  let arg5 : BitVec 32 := Scf.iv c0_i32 c1_i32 k0_t1
  let v44 : Index := Scalar.indexCast arg5
  let c0_14 : Index := 0#32
  let c0_15 : Index := 0#32
  ![v44.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S8x256_S8x256_0_0 : ∀ a, (![0, 0] : Fin 2 → Nat) a + S8x256.size a ≤ S8x256.size a
  h_S8x256 : 0 < S8x256.numel
  inb_S8_S8_0 : ∀ a, (![0] : Fin 1 → Nat) a + S8.size a ≤ S8.size a
  h_S8 : 0 < S8.numel
  reduces_S8x256_S8 : S8x256.Reduces [1] S8
  h_S1x2048x256 : 0 < S1x2048x256.numel
  shapeCasts_S1x2048x256_S2048x256 : S1x2048x256.ShapeCasts S2048x256
  reduces_S2048x256_S2048 : S2048x256.Reduces [1] S2048
  shapeCasts_S2048_S2048x1 : S2048.ShapeCasts S2048x1
  transposes_S2048x1_p1_0_S1x2048 : S2048x1.Transposes [1, 0] S1x2048
  bitsLt_bf16_f32 : FTy.bits .bf16 < FTy.bits .f32
  broadcasts_S1x2048_S8x2048 : S1x2048.Broadcasts S8x2048
  shapeCasts_S8_S8x1 : S8.ShapeCasts S8x1
  broadcasts_S8x1_S8x2048 : S8x1.Broadcasts S8x2048
  reduces_S8x2048_S2048 : S8x2048.Reduces [0] S2048
  shapeCasts_S2048_S1x2048 : S2048.ShapeCasts S1x2048
  reduces_S8x2048_S8 : S8x2048.Reduces [1] S8
  broadcasts_S8x1_S8x256 : S8x1.Broadcasts S8x256
  h_S1x8x256 : 0 < S1x8x256.numel
  shapeCasts_S1x8x256_S8x256 : S1x8x256.ShapeCasts S8x256
  shapeCasts_S8x256_S1x8x256 : S8x256.ShapeCasts S1x8x256
  shapeCasts_S16x8x256_S16x2048 : S16x8x256.ShapeCasts S16x2048
  dot_S8x256_S2048x256_S8x2048_1_1_0_0_n_n_wf : DotDims.WF S8x256 S2048x256 S8x2048 [1] [1] [0] [0] [] []
  dot_S8x2048_S2048x256_S8x256_1_0_0_1_n_n_wf : DotDims.WF S8x2048 S2048x256 S8x256 [1] [0] [0] [1] [] []
  hrank0 : 0 < grid0.rank
  k0_t1_ok : k0_t1_loop.OK
  k0_off1_inb : ∀ k0_t1 : Fin k0_t1_loop.trips, ∀ a, (k0_off1 k0_t1) a + S1x2048x256.size a ≤ S2x2048x256.size a
  k0_off2_inb : ∀ k0_t1 : Fin k0_t1_loop.trips, ∀ a, (k0_off2 k0_t1) a + S1x8x256.size a ≤ S2x8x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2048x256.size a ≤ S16x2048x256.size a
  hwx0_0 : ∀ i : grid0.Coords, EltTy.bits .f32 = 32 ∨ (Rect.block (s := S16x2048x256) S2x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S8x256.size a
  hwx0_1 : ∀ i : grid0.Coords, EltTy.bits .f32 = 32 ∨ (Rect.block (s := S8x256) S8x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8.size a ≤ S8.size a
  hwx0_2 : ∀ i : grid0.Coords, EltTy.bits .f32 = 32 ∨ (Rect.block (s := S8) S8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x8x256.size a ≤ S16x8x256.size a
  hwx0_3 : ∀ i : grid0.Coords, EltTy.bits .f32 = 32 ∨ (Rect.block (s := S16x8x256) S2x8x256.size (cc0_transform_3 i) (hinb0_3 i)).WholeWords (EltTy.packing .f32)

variable [Facts₀]

def dot_S8x256_S2048x256_S8x2048_1_1_0_0_n_n : DotDims S8x256 S2048x256 S8x2048 where
  lhsContracting := [1]
  rhsContracting := [1]
  lhsNonContracting := [0]
  rhsNonContracting := [0]
  lhsBatch := []
  rhsBatch := []
  wf := dot_S8x256_S2048x256_S8x2048_1_1_0_0_n_n_wf
def dot_S8x2048_S2048x256_S8x256_1_0_0_1_n_n : DotDims S8x2048 S2048x256 S8x256 where
  lhsContracting := [1]
  rhsContracting := [0]
  lhsNonContracting := [0]
  rhsNonContracting := [1]
  lhsBatch := []
  rhsBatch := []
  wf := dot_S8x2048_S2048x256_S8x256_1_0_0_1_n_n_wf

abbrev win0_0 : Pipeline.Window sig grid0 :=
  Pipeline.Window.ofSpec (Memref.whole main_arg0) S2x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2x8x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x256 : Shape := ⟨3, ![16, 2048, 256]⟩
abbrev S8x256 : Shape := ⟨2, ![8, 256]⟩
abbrev S8 : Shape := ⟨1, ![8]⟩
abbrev S_ : Shape := ⟨0, ![]⟩
abbrev S16x2048 : Shape := ⟨2, ![16, 2048]⟩
abbrev S16x2048x1 : Shape := ⟨3, ![16, 2048, 1]⟩
abbrev S16x2048x8 : Shape := ⟨3, ![16, 2048, 8]⟩
abbrev S1x1x8 : Shape := ⟨3, ![1, 1, 8]⟩
abbrev S16x8x256 : Shape := ⟨3, ![16, 8, 256]⟩
abbrev S16x8 : Shape := ⟨2, ![16, 8]⟩
abbrev S16x8x1 : Shape := ⟨3, ![16, 8, 1]⟩
abbrev S1x8x256 : Shape := ⟨3, ![1, 8, 256]⟩

abbrev nBuf : Space → Nat
  | .hbm => 47
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S8x256, .f32⟩
  | .hbm, ⟨2, _⟩ => ⟨S8, .f32⟩
  | .hbm, ⟨3, _⟩ => ⟨S16x2048x256, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S8x256, .f32⟩
  | .hbm, ⟨8, _⟩ => ⟨S_, .f32⟩
  | .hbm, ⟨9, _⟩ => ⟨S8, .f32⟩
  | .hbm, ⟨10, _⟩ => ⟨S16x2048x8, .f32⟩
  | .hbm, ⟨11, _⟩ => ⟨S_, .f32⟩
  | .hbm, ⟨12, _⟩ => ⟨S16x2048x8, .f32⟩
  | .hbm, ⟨13, _⟩ => ⟨S16x2048x8, .f32⟩
  | .hbm, ⟨14, _⟩ => ⟨S16x2048x8, .f32⟩
  | .hbm, ⟨15, _⟩ => ⟨S16x2048x8, .f32⟩
  | .hbm, ⟨16, _⟩ => ⟨S1x1x8, .f32⟩
  | .hbm, ⟨17, _⟩ => ⟨S16x2048x8, .f32⟩
  | .hbm, ⟨18, _⟩ => ⟨S16x2048x8, .f32⟩
  | .hbm, ⟨19, _⟩ => ⟨S8, .f32⟩
  | .hbm, ⟨20, _⟩ => ⟨S1x1x8, .f32⟩
  | .hbm, ⟨21, _⟩ => ⟨S16x2048x8, .f32⟩
  | .hbm, ⟨22, _⟩ => ⟨S16x2048x8, .f32⟩
  | .hbm, ⟨23, _⟩ => ⟨S_, .f32⟩
  | .hbm, ⟨24, _⟩ => ⟨S16x2048, .f32⟩
  | .hbm, ⟨25, _⟩ => ⟨S_, .f32⟩
  | .hbm, ⟨26, _⟩ => ⟨S16x2048, .f32⟩
  | .hbm, ⟨27, _⟩ => ⟨S16x2048, .f32⟩
  | .hbm, ⟨28, _⟩ => ⟨S16x2048x1, .f32⟩
  | .hbm, ⟨29, _⟩ => ⟨S16x2048x8, .f32⟩
  | .hbm, ⟨30, _⟩ => ⟨S16x2048x8, .f32⟩
  | .hbm, ⟨31, _⟩ => ⟨S16x2048x8, .f32⟩
  | .hbm, ⟨32, _⟩ => ⟨S_, .f32⟩
  | .hbm, ⟨33, _⟩ => ⟨S16x2048, .f32⟩
  | .hbm, ⟨34, _⟩ => ⟨S16x2048x1, .f32⟩
  | .hbm, ⟨35, _⟩ => ⟨S16x2048x8, .f32⟩
  | .hbm, ⟨36, _⟩ => ⟨S16x2048x8, .f32⟩
  | .hbm, ⟨37, _⟩ => ⟨S16x8x256, .f32⟩
  | .hbm, ⟨38, _⟩ => ⟨S_, .f32⟩
  | .hbm, ⟨39, _⟩ => ⟨S16x8, .f32⟩
  | .hbm, ⟨40, _⟩ => ⟨S16x8x1, .f32⟩
  | .hbm, ⟨41, _⟩ => ⟨S1x8x256, .f32⟩
  | .hbm, ⟨42, _⟩ => ⟨S16x8x256, .f32⟩
  | .hbm, ⟨43, _⟩ => ⟨S16x8x256, .f32⟩
  | .hbm, ⟨44, _⟩ => ⟨S16x8x256, .f32⟩
  | .hbm, ⟨45, _⟩ => ⟨S16x8x256, .f32⟩
  | .hbm, ⟨46, _⟩ => ⟨S16x2048, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  reducesTo_S16x2048x256_S16x2048_d2 : S16x2048x256.ReducesTo [2] S16x2048
  h_S_ : 0 < S_.numel
  bcast_S16x2048_S16x2048x1_0_1 : S16x2048.BroadcastsInDim S16x2048x1 (![0, 1] : Fin 2 → Fin S16x2048x1.rank)
  reducesTo_S8x256_S8_d1 : S8x256.ReducesTo [1] S8
  bcast_S_S16x2048x8 : S_.BroadcastsInDim S16x2048x8 (![] : Fin 0 → Fin S16x2048x8.rank)
  bcast_S16x2048x1_S16x2048x8_0_1_2 : S16x2048x1.BroadcastsInDim S16x2048x8 (![0, 1, 2] : Fin 3 → Fin S16x2048x8.rank)
  bcast_S8_S1x1x8_2 : S8.BroadcastsInDim S1x1x8 (![2] : Fin 1 → Fin S1x1x8.rank)
  bcast_S1x1x8_S16x2048x8_0_1_2 : S1x1x8.BroadcastsInDim S16x2048x8 (![0, 1, 2] : Fin 3 → Fin S16x2048x8.rank)
  reducesTo_S16x2048x8_S16x2048_d2 : S16x2048x8.ReducesTo [2] S16x2048
  bcast_S_S16x2048 : S_.BroadcastsInDim S16x2048 (![] : Fin 0 → Fin S16x2048.rank)
  reducesTo_S16x2048x8_S16x8_d1 : S16x2048x8.ReducesTo [1] S16x8
  bcast_S16x8_S16x8x1_0_1 : S16x8.BroadcastsInDim S16x8x1 (![0, 1] : Fin 2 → Fin S16x8x1.rank)
  bcast_S8x256_S1x8x256_1_2 : S8x256.BroadcastsInDim S1x8x256 (![1, 2] : Fin 2 → Fin S1x8x256.rank)
  bcast_S16x8x1_S16x8x256_0_1_2 : S16x8x1.BroadcastsInDim S16x8x256 (![0, 1, 2] : Fin 3 → Fin S16x8x256.rank)
  bcast_S1x8x256_S16x8x256_0_1_2 : S1x8x256.BroadcastsInDim S16x8x256 (![0, 1, 2] : Fin 3 → Fin S16x8x256.rank)
  shapeCasts_S16x8x256_S16x2048 : S16x8x256.ShapeCasts S16x2048
  dot_S16x2048x256_S8x256_S16x2048x8_2_1_01_0_n_n_wf : DotDims.WF S16x2048x256 S8x256 S16x2048x8 [2] [1] [0, 1] [0] [] []
  dot_S16x2048x8_S16x2048x256_S16x8x256_1_1_2_2_0_0_wf : DotDims.WF S16x2048x8 S16x2048x256 S16x8x256 [1] [1] [2] [2] [0] [0]

variable [Facts₀]

def dot_S16x2048x256_S8x256_S16x2048x8_2_1_01_0_n_n : DotDims S16x2048x256 S8x256 S16x2048x8 where
  lhsContracting := [2]
  rhsContracting := [1]
  lhsNonContracting := [0, 1]
  rhsNonContracting := [0]
  lhsBatch := []
  rhsBatch := []
  wf := dot_S16x2048x256_S8x256_S16x2048x8_2_1_01_0_n_n_wf
def dot_S16x2048x8_S16x2048x256_S16x8x256_1_1_2_2_0_0 : DotDims S16x2048x8 S16x2048x256 S16x8x256 where
  lhsContracting := [1]
  rhsContracting := [1]
  lhsNonContracting := [2]
  rhsNonContracting := [2]
  lhsBatch := [0]
  rhsBatch := [0]
  wf := dot_S16x2048x8_S16x2048x256_S16x8x256_1_1_2_2_0_0_wf

class Facts : Prop extends Facts₀ where

variable [Facts]
-- ==== Proof.Spec.lean ====
/-
  Soft-assignment residual pooling over eight centres, as ONE function of the argument arrays on the extended reals.

  For one batch, a frame is a row `xs t` of 256 features (2048 frames), a centre a row `ce c` (8 centres), `sc c` its
  scale. The squared distance of frame `t` to centre `c` is expanded as |x|² − 2·⟨x, c⟩ + |c|²; the logit is minus the
  scale times it; the assignment of a frame is the softmax of its eight logits (shifted by their maximum); the pooled
  residual of centre `c` at feature `d` is Σ_t a(t, c)·x(t, d) − (Σ_t a(t, c))·c(d).
-/
import Idealize.ShloMosaic.PureOps.Ideal
import Idealize.ShloMosaic.PureOps.Ideal.Laws
import Idealize.ShloMosaic.Lib.ValueIdx

noncomputable section

open scoped BigOperators

namespace Cert.Pool

open Idealize.ShloMosaic Idealize.ShloMosaic.ValueIdx

/-- The literal `2.0` as an extended real. -/
abbrev two : EReal := Ideal.ofBits .f32 0x40000000#32
/-- The literal `−∞`, from which a maximum is folded. -/
abbrev negInf : EReal := Ideal.ofBits .f32 0xFF800000#32

section OneBatch

variable (xs : Fin 2048 → Fin 256 → EReal) (ce : Fin 8 → Fin 256 → EReal) (sc : Fin 8 → EReal)

/-- The squared distance of frame `t` to centre `c`, expanded: |x|² − 2·⟨x, c⟩ + |c|². -/
def dist (t : Fin 2048) (c : Fin 8) : EReal :=
  (∑ k : Fin 256, xs t k * xs t k) - two * (∑ k : Fin 256, xs t k * ce c k) + ∑ k : Fin 256, ce c k * ce c k

/-- The logit of frame `t` for centre `c`: minus the centre's scale times the distance. -/
def logit (t : Fin 2048) (c : Fin 8) : EReal := -(sc c) * dist xs ce t c

/-- The largest of a frame's eight logits, folded from −∞. -/
def top (t : Fin 2048) : EReal :=
  max negInf ((Finset.univ : Finset (Fin 8)).fold max negInf fun c => logit xs ce sc t c)

/-- The unnormalised weight: the exponential of the logit shifted by the frame's largest. -/
def weight (t : Fin 2048) (c : Fin 8) : EReal := Ideal.exp (logit xs ce sc t c - top xs ce sc t)

/-- The soft assignment of frame `t` to centre `c`: its weight over the sum of the frame's eight weights. -/
def assign (t : Fin 2048) (c : Fin 8) : EReal :=
  Ideal.div (weight xs ce sc t c) (∑ k : Fin 8, weight xs ce sc t k)

/-- The pooled residual of centre `c` at feature `d`: Σ_t a(t, c)·x(t, d) − (Σ_t a(t, c))·c(d). -/
def pooled (c : Fin 8) (d : Fin 256) : EReal :=
  (∑ t : Fin 2048, assign xs ce sc t c * xs t d) - (∑ t : Fin 2048, assign xs ce sc t c) * ce c d

end OneBatch

/-- The frames of batch `b` of the whole input. -/
abbrev batchOf (x : (⟨3, ![16, 2048, 256]⟩ : Shape).Idx → EReal) (b : Fin 16) : Fin 2048 → Fin 256 → EReal :=
  fun t k => x (ix3 b t k)
/-- The centres and the scales by coordinates. -/
abbrev centresOf (cen : (⟨2, ![8, 256]⟩ : Shape).Idx → EReal) : Fin 8 → Fin 256 → EReal := fun c k => cen (ix2 c k)
abbrev scalesOf (scl : (⟨1, ![8]⟩ : Shape).Idx → EReal) : Fin 8 → EReal := fun c => scl (ix1 c)

/-- The whole result before its final flattening, [16, 8, 256]: entry (b, c, d) is batch `b`'s pooled residual. -/
def result (x : (⟨3, ![16, 2048, 256]⟩ : Shape).Idx → EReal) (cen : (⟨2, ![8, 256]⟩ : Shape).Idx → EReal)
    (scl : (⟨1, ![8]⟩ : Shape).Idx → EReal) : (⟨3, ![16, 8, 256]⟩ : Shape).Idx → EReal :=
  fun i => pooled (batchOf x (i 0)) (centresOf cen) (scalesOf scl) (i 1) (i 2)

theorem result_ix3 (x : (⟨3, ![16, 2048, 256]⟩ : Shape).Idx → EReal) (cen : (⟨2, ![8, 256]⟩ : Shape).Idx → EReal)
    (scl : (⟨1, ![8]⟩ : Shape).Idx → EReal) (b : Fin 16) (c : Fin 8) (d : Fin 256) :
    result x cen scl (ix3 b c d) = pooled (batchOf x b) (centresOf cen) (scalesOf scl) c d := rfl

end Cert.Pool

end
-- ==== Proof.RefRead.lean ====
/-
  The reference program, read one stage at a time at the ideal values, computes the pooling function of `Spec`:
  its logits, the per-frame maximum and weights, the soft assignments, and the pooled residual are, at each index
  written by its coordinates, the corresponding function of batch `b`'s frames, the centres and the scales.
  Nothing here needs more than unfolding: the reference's sums run over the same indices in the same order.
-/
import proofs.«137179_j74783970558328_2_alg».proof.Proof.Gen.ReferenceIdeal.Read
import proofs.«137179_j74783970558328_2_alg».proof.Proof.Spec

noncomputable section

open scoped BigOperators

namespace Cert.Pool.Ref

open Cert.ReferenceIdeal Cert.ReferenceIdeal.Gen Cert.ReferenceIdeal.Read Idealize.ShloMosaic Idealize.ShloMosaic.ValueIdx

variable (x0 : (⟨S16x2048x256, .f32⟩ : BufTy).Contents (Elt Ideal)) (x1 : (⟨S8x256, .f32⟩ : BufTy).Contents (Elt Ideal))
  (x2 : (⟨S8, .f32⟩ : BufTy).Contents (Elt Ideal))

/-! ## The stages' index maps at indices written by coordinates -/

local macro "coords1" : tactic => `(tactic| (funext a; apply Fin.ext; match a with | ⟨0, _⟩ => rfl))
local macro "coords2" : tactic => `(tactic| (funext a; apply Fin.ext; match a with | ⟨0, _⟩ => rfl | ⟨1, _⟩ => rfl))
local macro "coords3" : tactic => `(tactic| (funext a; apply Fin.ext; match a with | ⟨0, _⟩ => rfl | ⟨1, _⟩ => rfl | ⟨2, _⟩ => rfl))

theorem frameSq_idx (b : Fin 16) (t : Fin 2048) (k : Fin 256) : idx_main_v1 (ix2 b t) k = ix3 b t k := by coords3
theorem frameSq_col (b : Fin 16) (t : Fin 2048) (c : Fin 8) : idx_main_v2 (idx_main_v8 (ix3 b t c)) = ix2 b t := by coords2
theorem centreSq_idx (c : Fin 8) (k : Fin 256) : idx_main_v4 (ix1 c) k = ix2 c k := by coords2
theorem centreSq_row (b : Fin 16) (t : Fin 2048) (c : Fin 8) : idx_main_v10 (idx_main_v11 (ix3 b t c)) = ix1 c := by coords1
theorem cross_lhs (b : Fin 16) (t : Fin 2048) (c : Fin 8) (k : Fin 256) : lidx_main_v5 (ix3 b t c) k = ix3 b t k := by coords3
theorem cross_rhs (b : Fin 16) (t : Fin 2048) (c : Fin 8) (k : Fin 256) : ridx_main_v5 (ix3 b t c) k = ix2 c k := by coords2
theorem scale_row (b : Fin 16) (t : Fin 2048) (c : Fin 8) : idx_main_v14 (idx_main_v15 (ix3 b t c)) = ix1 c := by coords1
theorem top_col (b : Fin 16) (t : Fin 2048) (c : Fin 8) : idx_main_v20 (idx_main_v21 (ix3 b t c)) = ix2 b t := by coords2
theorem norm_col (b : Fin 16) (t : Fin 2048) (c : Fin 8) : idx_main_v25 (idx_main_v26 (ix3 b t c)) = ix2 b t := by coords2
theorem norm_idx (b : Fin 16) (t : Fin 2048) (k : Fin 8) : idx_main_v24 (ix2 b t) k = ix3 b t k := by coords3
theorem agg_lhs (b : Fin 16) (c : Fin 8) (d : Fin 256) (k : Fin 2048) : lidx_main_v28 (ix3 b c d) k = ix3 b k c := by coords3
theorem agg_rhs (b : Fin 16) (c : Fin 8) (d : Fin 256) (k : Fin 2048) : ridx_main_v28 (ix3 b c d) k = ix3 b k d := by coords3
theorem mass_col (b : Fin 16) (c : Fin 8) (d : Fin 256) : idx_main_v30 (idx_main_v32 (ix3 b c d)) = ix2 b c := by coords2
theorem mass_idx (b : Fin 16) (c : Fin 8) (k : Fin 2048) : idx_main_v29 (ix2 b c) k = ix3 b k c := by coords3
theorem centre_idx (b : Fin 16) (c : Fin 8) (d : Fin 256) : idx_main_v31 (idx_main_v33 (ix3 b c d)) = ix2 c d := by coords2

/-- The reduced index (b, t) with the centre coordinate `k` put back is (b, t, k). -/
theorem lift_frame (h : S16x2048x8.Reduces [2] S16x2048) (b : Fin 16) (t : Fin 2048) (k : Fin (S16x2048x8.size 2)) :
    h.lift (ix2 b t) k = ix3 b t (⟨k.val, k.isLt⟩ : Fin 8) := by
  funext a; apply Fin.ext
  fin_cases a <;> rfl

/-! ## The stages -/

/-- The logit stage at (b, t, c). -/
theorem logit_eq (b : Fin 16) (t : Fin 2048) (c : Fin 8) :
    val_main_v16 (F := Ideal) x0 x1 x2 (ix3 b t c) = logit (batchOf x0 b) (centresOf x1) (scalesOf x2) t c := by
  simp only [val_main_v16_apply, val_main_v15_apply, val_main_v14_apply, val_main_v13_apply, val_main_v12_apply,
    val_main_v11_apply, val_main_v10_apply, val_main_v9_apply, val_main_v8_apply, val_main_v7_apply, val_main_v6_apply,
    val_main_v5_apply, val_main_v4_apply, val_main_v3_apply, val_main_v2_apply, val_main_v1_apply, val_main_v0_apply,
    val_main_cst_apply, val_main_cst_0_apply, val_main_cst_1_apply,
    frameSq_idx, frameSq_col, centreSq_idx, centreSq_row, cross_lhs, cross_rhs, scale_row,
    Ideal.ofBits_def, Ideal.ofBits_zero_f32, zero_add, Ideal.mulf_def, Ideal.addf_def, Ideal.subf_def, Ideal.hostNegf_def,
    Ideal.negf_def]
  rfl

/-- The largest logit of frame (b, t), folded from −∞ over the eight centres. -/
theorem top_eq (b : Fin 16) (t : Fin 2048) :
    val_main_v19 (F := Ideal) x0 x1 x2 (ix2 b t) = top (batchOf x0 b) (centresOf x1) (scalesOf x2) t := by
  have h : S16x2048x8.Reduces [2] S16x2048 := by decide
  rw [val_main_v19_apply, val_main_v18_apply, val_main_cst_3_apply]
  unfold val_main_v17
  rw [Host.reduce_eq_fold_single FloatOps.maximumf _ _ reducesTo_S16x2048x8_S16x2048_d2 h h_S_]
  have hf : (val_main_v16 (F := Ideal) x0 x1 x2 ∘ h.lift (ix2 b t))
      = fun k : Fin 8 => logit (batchOf x0 b) (centresOf x1) (scalesOf x2) t k :=
    funext fun k => (congrArg (val_main_v16 (F := Ideal) x0 x1 x2) (lift_frame h b t k)).trans (logit_eq x0 x1 x2 b t _)
  rw [hf, val_main_cst_2_apply]
  rfl

/-- The weight stage at (b, t, c). -/
theorem weight_eq (b : Fin 16) (t : Fin 2048) (c : Fin 8) :
    val_main_v23 (F := Ideal) x0 x1 x2 (ix3 b t c) = weight (batchOf x0 b) (centresOf x1) (scalesOf x2) t c := by
  rw [val_main_v23_apply, val_main_v22_apply, val_main_v21_apply, val_main_v20_apply, top_col, top_eq, logit_eq]
  rfl

/-- The assignment stage at (b, t, c). -/
theorem assign_eq (b : Fin 16) (t : Fin 2048) (c : Fin 8) :
    val_main_v27 (F := Ideal) x0 x1 x2 (ix3 b t c) = assign (batchOf x0 b) (centresOf x1) (scalesOf x2) t c := by
  rw [val_main_v27_apply, val_main_v26_apply, val_main_v25_apply, norm_col, val_main_v24_apply, weight_eq]
  simp only [norm_idx, weight_eq, val_main_cst_4_apply, Ideal.ofBits_def, Ideal.ofBits_zero_f32, zero_add]
  rfl

/-- The reference's [16, 8, 256] array before its final flattening is the pooling function. -/
theorem result_eq : val_main_v35 (F := Ideal) x0 x1 x2 = result x0 x1 x2 := by
  funext i
  obtain ⟨b, c, d, rfl⟩ : ∃ (b : Fin 16) (c : Fin 8) (d : Fin 256), i = ix3 b c d := ⟨i 0, i 1, i 2, eq_ix3 i⟩
  rw [result_ix3, val_main_v35_apply, val_main_v34_apply, val_main_v33_apply, val_main_v31_apply, val_main_v32_apply,
    val_main_v30_apply, val_main_v29_apply, val_main_v28_apply, mass_col, centre_idx]
  simp only [agg_lhs, agg_rhs, mass_idx, assign_eq, val_main_cst_5_apply, Ideal.ofBits_def, Ideal.ofBits_zero_f32, zero_add]
  rfl

end Cert.Pool.Ref

end
-- ==== Proof.LibColumn.lean ====
/-
  A column of row values laid out for a `keepdims` sum: a vector of `a` values recast as an `[a, 1]` column, and such a
  column broadcast along its unit axis to an `[a, b]` matrix — each read at an index given by its coordinates. (The
  companion row forms, `[a] → [1, a]` and `[1, b] → [a, b]`, are in the library.)
-/
import Idealize.ShloMosaic.Lib.Pipeline.Value
import Idealize.ShloMosaic.Lib.ValueIdx

namespace Cert.LibColumn

open Idealize.ShloMosaic Idealize.ShloMosaic.ValueIdx

variable {α : Type}

/-- An `[a]` vector cast to an `[a, 1]` column reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibRowOps.lean ====
/-
  General reads at an index, at the ideal values, used by the row-local stages of a network: a matrix product
  accumulated into zero, a column broadcast across the columns, and the select that spells the exponential linear unit.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

open scoped BigOperators

namespace Cert.RowLib

open Idealize.ShloMosaic Idealize.ShloMosaic.ValueIdx

/-- A dot's dimension numbers that contract the left operand's columns with the right operand's rows, with no batch
    axis, are the plain m×k by k×n product's. -/
theorem dotDims_eq_plain {m k n : Nat} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = []) : D = DotDims.plain m k n := by
  obtain ⟨lc, rc, ln, rn, lb, rb, wf⟩ := D
  dsimp only at hlc hrc hln hrn hlb hrb
  subst hlc hrc hln hrn hlb hrb
  rfl

/-- The plain product of an m×k by a k×n matrix accumulated into the zero splat, read at (a, b), is the sum over the
    contracted coordinate of the products of the entries: row a of the left operand against column b of the right. -/
theorem matmul_plain_zero_ix2 {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on "h is above z" is the `if` on the order of the extended reals. -/
theorem select_cmpf_ogt {α : Type} (h z : Ideal .f32) (A B : α) :
    Scalar.select (FloatOps.cmpf .ogt h z) A B = if z < h then A else B := by
  show Scalar.select (Ideal.cmp .ogt h z) A B = _
  unfold Ideal.cmp Scalar.select
  by_cases hh : z < h <;> simp [hh]

end Cert.RowLib

end
-- ==== Proof.LibMatrixReduce.lean ====
/-
  Reductions of a matrix and a product against a transposed matrix, read at an index at the ideal values.

  For an `[a, b]` matrix of extended reals: the sum along axis 1 at row `i` is `∑ k, src (i, k)`; the sum along axis 0 at
  column `j` is `∑ k, src (k, j)`; the maximum along axis 0 at column `j` is the fold of `max` over the rows from the
  accumulator's value. For an `[m, k]` matrix `A` and an `[n, k]` matrix `B` contracted along their second axes into a zero
  accumulator (the product `A · Bᵀ`), entry `(p, q)` is `∑ c, A (p, c) * B (q, c)`.
-/
import Idealize.ShloMosaic.PureOps.Ideal.Laws
import Idealize.ShloMosaic.Lib.ValueIdx

noncomputable section

open scoped BigOperators

namespace Cert.LibMatrixReduce

open Idealize.ShloMosaic Idealize.ShloMosaic.ValueIdx

/-- A row index with the column `k` put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A column index with the row `k` put back is `(k, j)`. -/
theorem lift_col {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- The sum of a matrix along axis 1, at row `i`: the sum of the row's entries. -/
theorem rowSum_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_row h i k))

/-- The sum of a matrix along axis 0, at column `j`: the sum of the column's entries. -/
theorem colSum_apply {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (lift_col h j k))

/-- The maximum of a matrix along axis 0, at column `j`: the fold of `max` over the column's entries from the
    accumulator's value. -/
theorem colMax_apply {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (j : Fin b) :
    multiReduction .maximumf [0] ⟨1, ![b]⟩ src acc h hφ hacc (ix1 j)
      = (Finset.univ : Finset (Fin a)).fold max (Ideal.ofBits φ acc) fun k => src (ix2 k j) := by
  refine (Ideal.multiReduction_maximumf_single src acc h hφ hacc (ix1 j)).trans ?_
  have hf : (src ∘ h.lift (ix1 j)) = fun k : Fin a => src (ix2 k j) := funext fun k => congrArg src (lift_col h j k)
  rw [hf]
  rfl

/-- Dimension numbers that contract both operands' second axes, with no batch axis, are those of the product of an
    m×k matrix with the transpose of an n×k matrix. -/
theorem dotDims_eq_transposedRhs {m k n : Nat} (D : DotDims ⟨2, ![m, k]⟩ ⟨2, ![n, k]⟩ ⟨2, ![m, n]⟩)
    (hlc : D.lhsContracting = [1]) (hrc : D.rhsContracting = [1]) (hln : D.lhsNonContracting = [0])
    (hrn : D.rhsNonContracting = [0]) (hlb : D.lhsBatch = []) (hrb : D.rhsBatch = []) :
    D = DotDims.transposedRhs m k n := by
  obtain ⟨lc, rc, ln, rn, lb, rb, wf⟩ := D
  dsimp only at hlc hrc hln hrn hlb hrb
  subst hlc hrc hln hrn hlb hrb
  rfl

/-- The product of an m×k matrix `A` with the transpose of an n×k matrix `B`, accumulated into the zero splat, read at
    (p, q): row p of `A` against row q of `B`. -/
theorem matmul_transposedRhs_zero_ix2 {m k n : Nat} {φ₁ φ₂ : FTy} (prec : Option ContractPrecision)
    (A : FVec Ideal ⟨2, ![m, k]⟩ φ₁) (B : FVec Ideal ⟨2, ![n, k]⟩ φ₂) (p : Fin m) (q : Fin n) :
    matmul (DotDims.transposedRhs m k n) prec A B (constant ⟨2, ![m, n]⟩ .f32 0x00000000#32) (ix2 p q)
      = ∑ c : Fin k, A (ix2 p c) * B (ix2 q c) := by
  refine (Ideal.matmul_constant_zero_apply (DotDims.transposedRhs m k n) prec A B (ix2 p q)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 p q) ((contrEquiv1 _ k rfl rfl).symm c) = ix2 p c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 p q) ((contrEquiv1 _ k rfl rfl).symm c) = ix2 q c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

end Cert.LibMatrixReduce

end
-- ==== Proof.Payload.lean ====
/-
  The kernel body's arithmetic for ONE batch, read at an index at the ideal values, is the pooling function of `Spec`.

  The body works on the transposed layout: centres on the rows, frames on the columns. Its logits array is [8, 2048] with
  entry (c, t) the logit of frame `t` for centre `c`; the softmax runs down the columns; the pooled residual is the
  product of the [8, 2048] assignments with the [2048, 256] frames minus the row sums of the assignments times the centres.
  Stage by stage each entry is the corresponding function of `Spec` at (t, c). Two laws are used: the cross term is summed
  as ⟨c, x⟩ where the specification writes ⟨x, c⟩ (commutativity of the product, term by term), and the scale is negated
  as `0 − s` (which is `−s` on every extended real). Changes of float format are the identity at the ideal values.
-/
import proofs.«137179_j74783970558328_2_alg».proof.Proof.Gen.KernelIdeal.Skeleton
import proofs.«137179_j74783970558328_2_alg».proof.Proof.Spec
import proofs.«137179_j74783970558328_2_alg».proof.Proof.LibColumn
import proofs.«137179_j74783970558328_2_alg».proof.Proof.LibRowOps
import proofs.«137179_j74783970558328_2_alg».proof.Proof.LibMatrixReduce
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Pool.Body

open Cert.KernelIdeal Cert.KernelIdeal.Gen Idealize.ShloMosaic Idealize.ShloMosaic.ValueIdx
open Cert.LibColumn Cert.LibMatrixReduce

variable (v0 : FVec Ideal S8x256 .f32) (v1 : FVec Ideal S8 .f32) (v6 : FVec Ideal S1x2048x256 .f32)

/-- The frames the body loaded, by coordinates (the load's leading unit axis dropped). -/
abbrev framesOf (v6 : FVec Ideal S1x2048x256 .f32) : Fin 2048 → Fin 256 → EReal := fun t k => v6 (ix3 (0 : Fin 1) t k)

/-! ## The body's intermediate arrays -/

/-- The frames as a [2048, 256] matrix. -/
def kFrames : FVec Ideal S2048x256 .f32 := shapeCast S2048x256 v6 shapeCasts_S1x2048x256_S2048x256
/-- |c|² per centre. -/
def kCentreSq : FVec Ideal S8 .f32 :=
  multiReduction .add [1] S8 (mulf v0 v0) 0x00000000#32 reduces_S8x256_S8 (.inl rfl) rfl
/-- |x|² per frame. -/
def kFrameSq : FVec Ideal S2048 .f32 :=
  multiReduction .add [1] S2048 (mulf (kFrames v6) (kFrames v6)) 0x00000000#32 reduces_S2048x256_S2048 (.inl rfl) rfl
/-- ⟨c, x⟩, centres by frames. -/
def kCross : FVec Ideal S8x2048 .f32 :=
  matmul dot_S8x256_S2048x256_S8x2048_1_1_0_0_n_n (some .fp32) v0 (kFrames v6) (constant S8x2048 .f32 0x00000000#32)
/-- The squared distances, centres by frames. -/
def kDist : FVec Ideal S8x2048 .f32 :=
  addf (subf (broadcastTo S8x2048 (transpose S1x2048 [1, 0] (shapeCast S2048x1 (kFrameSq v6) shapeCasts_S2048_S2048x1)
      transposes_S2048x1_p1_0_S1x2048) broadcasts_S1x2048_S8x2048)
    (mulf (broadcast S8x2048 (Scalar.ofBits .f32 0x40000000#32)) (kCross v0 v6)))
    (broadcastTo S8x2048 (shapeCast S8x1 (kCentreSq v0) shapeCasts_S8_S8x1) broadcasts_S8x1_S8x2048)
/-- The logits, centres by frames. -/
def kLogits : FVec Ideal S8x2048 .f32 :=
  mulf (broadcastTo S8x2048 (subf (broadcast S8x1 (Scalar.ofBits .f32 0x00000000#32)) (shapeCast S8x1 v1 shapeCasts_S8_S8x1))
    broadcasts_S8x1_S8x2048) (kDist v0 v6)
/-- The fold of the maximum down each column of the logits, from −∞. -/
def kColMax : FVec Ideal S2048 .f32 :=
  multiReduction .maximumf [0] S2048 (kLogits v0 v1 v6) 0xFF800000#32 reduces_S8x2048_S2048 (.inl rfl) rfl
/-- The largest logit per frame. -/
def kTop : FVec Ideal S2048 .f32 :=
  maximumf (broadcast S2048 (Scalar.ofBits .f32 0xFF800000#32)) (kColMax v0 v1 v6)
/-- The weights, centres by frames. -/
def kWeights : FVec Ideal S8x2048 .f32 :=
  exp (subf (kLogits v0 v1 v6)
    (broadcastTo S8x2048 (shapeCast S1x2048 (kTop v0 v1 v6) shapeCasts_S2048_S1x2048) broadcasts_S1x2048_S8x2048))
/-- The sum of each frame's eight weights. -/
def kNorm : FVec Ideal S2048 .f32 :=
  multiReduction .add [0] S2048 (kWeights v0 v1 v6) 0x00000000#32 reduces_S8x2048_S2048 (.inl rfl) rfl
/-- The assignments, centres by frames. -/
def kAssign : FVec Ideal S8x2048 .f32 :=
  divf (kWeights v0 v1 v6)
    (broadcastTo S8x2048 (shapeCast S1x2048 (kNorm v0 v1 v6) shapeCasts_S2048_S1x2048) broadcasts_S1x2048_S8x2048)
/-- The total assignment of each centre over the frames. -/
def kMass : FVec Ideal S8 .f32 :=
  multiReduction .add [1] S8 (kAssign v0 v1 v6) 0x00000000#32 reduces_S8x2048_S8 (.inl rfl) rfl
/-- The pooled residuals, centres by features. -/
def kPooled : FVec Ideal S8x256 .f32 :=
  subf (matmul dot_S8x2048_S2048x256_S8x256_1_0_0_1_n_n none (truncf .bf16 (kAssign v0 v1 v6) bitsLt_bf16_f32)
      (truncf .bf16 (kFrames v6) bitsLt_bf16_f32) (constant S8x256 .f32 0x00000000#32))
    (mulf (broadcastTo S8x256 (shapeCast S8x1 (kMass v0 v1 v6) shapeCasts_S8_S8x1) broadcasts_S8x1_S8x256) v0)

/-- The body's one stored value is the pooled residuals with a leading unit axis. -/
theorem pay_eq : k0_pay1 (F := Ideal) v0 v1 v6 = shapeCast S1x8x256 (kPooled v0 v1 v6) shapeCasts_S8x256_S1x8x256 := rfl

/-! ## Each array at an index -/

theorem kFrames_apply (t : Fin 2048) (k : Fin 256) : kFrames v6 (ix2 t k) = framesOf v6 t k :=
  shapeCast_1ab_ab_apply v6 shapeCasts_S1x2048x256_S2048x256 t k

theorem kCentreSq_apply (c : Fin 8) : kCentreSq v0 (ix1 c) = ∑ k : Fin 256, centresOf v0 c k * centresOf v0 c k :=
  rowSum_apply (mulf v0 v0) 0x00000000#32 reduces_S8x256_S8 (.inl rfl) rfl c

theorem kFrameSq_apply (t : Fin 2048) : kFrameSq v6 (ix1 t) = ∑ k : Fin 256, framesOf v6 t k * framesOf v6 t k :=
  (rowSum_apply (mulf (kFrames v6) (kFrames v6)) 0x00000000#32 reduces_S2048x256_S2048 (.inl rfl) rfl t).trans
    (Finset.sum_congr rfl fun k _ => by rw [mulf_apply, kFrames_apply])

theorem kCross_apply (c : Fin 8) (t : Fin 2048) :
    kCross v0 v6 (ix2 c t) = ∑ k : Fin 256, centresOf v0 c k * framesOf v6 t k := by
  unfold kCross
  rw [dotDims_eq_transposedRhs dot_S8x256_S2048x256_S8x2048_1_1_0_0_n_n rfl rfl rfl rfl rfl rfl]
  refine (matmul_transposedRhs_zero_ix2 (some .fp32) v0 (kFrames v6) c t).trans ?_
  exact Finset.sum_congr rfl fun k _ => by rw [kFrames_apply]

theorem kDist_apply (c : Fin 8) (t : Fin 2048) :
    kDist v0 v6 (ix2 c t) = dist (framesOf v6) (centresOf v0) t c := by
  unfold kDist
  rw [addf_apply, subf_apply, mulf_apply, broadcast_apply, broadcastTo_1b_ab_apply, transpose_ix2_apply,
    shapeCast_a_a1_apply, kFrameSq_apply, kCross_apply, broadcastTo_a1_ab_apply, shapeCast_a_a1_apply, kCentreSq_apply]
  unfold dist
  rw [Finset.sum_congr rfl fun k _ => mul_comm (centresOf v0 c k) (framesOf v6 t k)]
  rfl

theorem kLogits_apply (c : Fin 8) (t : Fin 2048) :
    kLogits v0 v1 v6 (ix2 c t) = logit (framesOf v6) (centresOf v0) (scalesOf v1) t c := by
  unfold kLogits
  rw [mulf_apply, broadcastTo_a1_ab_apply, subf_apply, broadcast_apply, shapeCast_a_a1_apply, kDist_apply]
  show (Ideal.ofBits .f32 0x00000000#32 - v1 (ix1 c)) * _ = _
  rw [Ideal.ofBits_zero_f32, zero_sub]
  rfl

theorem kColMax_apply (t : Fin 2048) :
    kColMax v0 v1 v6 (ix1 t)
      = (Finset.univ : Finset (Fin 8)).fold max (Ideal.ofBits .f32 0xFF800000#32) fun k => kLogits v0 v1 v6 (ix2 k t) :=
  colMax_apply (kLogits v0 v1 v6) 0xFF800000#32 reduces_S8x2048_S2048 (.inl rfl) rfl t

theorem kTop_apply (t : Fin 2048) : kTop v0 v1 v6 (ix1 t) = top (framesOf v6) (centresOf v0) (scalesOf v1) t := by
  unfold kTop
  rw [maximumf_apply, broadcast_apply, kColMax_apply]
  have hf : (fun k : Fin 8 => kLogits v0 v1 v6 (ix2 k t))
      = fun k : Fin 8 => logit (framesOf v6) (centresOf v0) (scalesOf v1) t k := funext fun k => kLogits_apply v0 v1 v6 k t
  rw [hf]
  rfl

theorem kWeights_apply (c : Fin 8) (t : Fin 2048) :
    kWeights v0 v1 v6 (ix2 c t) = weight (framesOf v6) (centresOf v0) (scalesOf v1) t c := by
  unfold kWeights
  show Ideal.exp (kLogits v0 v1 v6 (ix2 c t) - broadcastTo S8x2048 _ broadcasts_S1x2048_S8x2048 (ix2 c t)) = _
  rw [broadcastTo_1b_ab_apply, shapeCast_a_1a_apply, kTop_apply, kLogits_apply]
  rfl

theorem kNorm_apply (t : Fin 2048) : kNorm v0 v1 v6 (ix1 t) = ∑ k : Fin 8, kWeights v0 v1 v6 (ix2 k t) :=
  colSum_apply (kWeights v0 v1 v6) 0x00000000#32 reduces_S8x2048_S2048 (.inl rfl) rfl t

theorem kAssign_apply (c : Fin 8) (t : Fin 2048) :
    kAssign v0 v1 v6 (ix2 c t) = assign (framesOf v6) (centresOf v0) (scalesOf v1) t c := by
  unfold kAssign
  rw [divf_apply, broadcastTo_1b_ab_apply, shapeCast_a_1a_apply, kNorm_apply, kWeights_apply]
  rw [Finset.sum_congr rfl fun k _ => kWeights_apply v0 v1 v6 k t]
  rfl

theorem kMass_apply (c : Fin 8) : kMass v0 v1 v6 (ix1 c) = ∑ t : Fin 2048, kAssign v0 v1 v6 (ix2 c t) :=
  rowSum_apply (kAssign v0 v1 v6) 0x00000000#32 reduces_S8x2048_S8 (.inl rfl) rfl c

theorem kPooled_apply (c : Fin 8) (d : Fin 256) :
    kPooled v0 v1 v6 (ix2 c d) = pooled (framesOf v6) (centresOf v0) (scalesOf v1) c d := by
  unfold kPooled
  rw [subf_apply, mulf_apply, broadcastTo_a1_ab_apply, shapeCast_a_a1_apply, kMass_apply,
    Cert.RowLib.dotDims_eq_plain dot_S8x2048_S2048x256_S8x256_1_0_0_1_n_n rfl rfl rfl rfl rfl rfl,
    Cert.RowLib.matmul_plain_zero_ix2]
  rw [Finset.sum_congr rfl fun t _ => kAssign_apply v0 v1 v6 c t]
  rw [Finset.sum_congr rfl fun (t : Fin 2048) _ =>
    show truncf .bf16 (kAssign v0 v1 v6) bitsLt_bf16_f32 (ix2 c t) * truncf .bf16 (kFrames v6) bitsLt_bf16_f32 (ix2 t d)
        = assign (framesOf v6) (centresOf v0) (scalesOf v1) t c * framesOf v6 t d by
      rw [truncf_apply, truncf_apply, kAssign_apply, kFrames_apply]]
  rfl

/-- The stored value at (u, c, d): batch-local pooled residual of centre `c` at feature `d`. -/
theorem pay_apply (u : Fin 1) (c : Fin 8) (d : Fin 256) :
    k0_pay1 (F := Ideal) v0 v1 v6 (ix3 u c d) = pooled (framesOf v6) (centresOf v0) (scalesOf v1) c d := by
  rw [pay_eq, shapeCast_ab_1ab_apply, kPooled_apply]

end Cert.Pool.Body

end
-- ==== Proof.Block.lean ====
/-
  What one grid point leaves in the output's staging block, [2, 8, 256]: row `r` of the block is the pooled residual of the
  `r`-th of the two batches the point was given.

  The body walks its two batches in a counted loop; trip `k` loads batch `k` of the input block and stores the body's value for
  it as row `k` of the output block. So every piece the run writes is the restriction, to the piece's rectangle, of one
  function of the block index, `blockOf`: at (r, c, d), the pooled residual computed from the frames (r, ·, ·) of the input
  block. The block reads back as that function wherever a piece covers, and the pieces cover the block.
-/
import proofs.«137179_j74783970558328_2_alg».proof.Proof.Gen.KernelIdeal.Frame
import proofs.«137179_j74783970558328_2_alg».proof.Proof.Payload

set_option maxRecDepth 16384

noncomputable section

open scoped BigOperators

namespace Cert.Pool.Block

open Cert.KernelIdeal Cert.KernelIdeal.Gen Idealize.ShloMosaic Idealize.ShloMosaic.TcCoe Idealize.ShloMosaic.ValueIdx
open Idealize.SL Idealize.SL.Sem
open Cert.Pool.Body

/-- The output block as ONE function of the input block `X` [2, 2048, 256], the centres and the scales: entry (r, c, d) is
    the pooled residual of centre `c` at feature `d` over the frames of row `r` of `X`. -/
def blockOf (X : S2x2048x256.Idx → EReal) (v0 : FVec Ideal S8x256 .f32) (v1 : FVec Ideal S8 .f32) : S2x8x256.Idx → EReal :=
  fun y => pooled (fun t k => X (ix3 (y 0) t k)) (centresOf v0) (scalesOf v1) (y 1) (y 2)

/-- Trip `k` of the body's loop writes ONE piece: at row `k` of the output block, the body's value of the frames loaded
    from row `k` of the input block. -/
theorem trip_piece {F : FTy → Type} [FloatOps F] (𝒱 : Variants) (c : Dev nD) (bd : Option 𝒱.V) (i : grid0.Coords)
    (arg1 : Memref sig .tc .vmem S2x2048x256 .f32) (harg1 : arg1.IsWhole) (arg2 : Memref sig .tc .vmem S8x256 .f32) (harg2 : arg2.IsWhole)
    (arg3 : Memref sig .tc .vmem S8 .f32) (harg3 : arg3.IsWhole) (arg4 : Memref sig .tc .vmem S2x8x256 .f32) (harg4 : arg4.IsWhole)
    (v0 : Vec F S8x256 .f32) (v1 : Vec F S8 .f32) (X : BufTy.Contents (Elt F) arg1.view.ty) (k : Fin k0_t1_loop.trips) :
    tripL_k0_t1 (F := F) 𝒱 c bd i arg1 harg1 arg2 harg2 arg3 harg3 arg4 harg4 v0 v1 X k
      = [⟨Rect.unit (s := S2x8x256) (k0_off2 k) S1x8x256.size (k0_off2_inb k),
          k0_pay1 v0 v1 (View.readAt (Elt F) arg1.view (Rect.unit (s := S2x2048x256) (k0_off1 k) S1x2048x256.size (k0_off1_inb k)).toLoadRect X)⟩] := by
  unfold tripL_k0_t1 trip_k0_t1
  rfl

/-- The piece of trip `k` is `blockOf` on its rectangle. -/
theorem piece_restricts (arg1 : Memref sig .tc .vmem S2x2048x256 .f32) (v0 : FVec Ideal S8x256 .f32) (v1 : FVec Ideal S8 .f32)
    (X : BufTy.Contents (Elt Ideal) arg1.view.ty) (k : Fin k0_t1_loop.trips) (x : S1x8x256.Idx) :
    k0_pay1 (F := Ideal) v0 v1 (View.readAt (Elt Ideal) arg1.view (Rect.unit (s := S2x2048x256) (k0_off1 k) S1x2048x256.size (k0_off1_inb k)).toLoadRect X) x
      = blockOf (arg1.view.read (Elt Ideal) X) v0 v1 ((Rect.unit (s := S2x8x256) (k0_off2 k) S1x8x256.size (k0_off2_inb k)).emb x) := by
  obtain ⟨u, c', d, rfl⟩ : ∃ (u : Fin 1) (c' : Fin 8) (d : Fin 256), x = ix3 u c' d := ⟨x 0, x 1, x 2, eq_ix3 x⟩
  have h2 := k0_off2_eq k
  have h1 := k0_off1_eq k
  have e1 : ((Rect.unit (s := S2x8x256) (k0_off2 k) S1x8x256.size (k0_off2_inb k)).emb (ix3 u c' d)) 1 = c' := Fin.ext (by
    show k0_off2 k 1 + 1 * c'.val = c'.val
    rw [h2]; show 0 + 1 * c'.val = c'.val; omega)
  have e2 : ((Rect.unit (s := S2x8x256) (k0_off2 k) S1x8x256.size (k0_off2_inb k)).emb (ix3 u c' d)) 2 = d := Fin.ext (by
    show k0_off2 k 2 + 1 * d.val = d.val
    rw [h2]; show 0 + 1 * d.val = d.val; omega)
  have e0 : (((Rect.unit (s := S2x8x256) (k0_off2 k) S1x8x256.size (k0_off2_inb k)).emb (ix3 u c' d)) 0).val = k.val := by
    show k0_off2 k 0 + 1 * u.val = k.val
    have hu : u.val < 1 := u.isLt
    rw [h2]; show k.val + 1 * u.val = k.val; omega
  rw [pay_apply]
  unfold blockOf
  rw [e1, e2]
  refine congrArg (fun F => pooled F (centresOf v0) (scalesOf v1) c' d) (funext fun t => funext fun j => ?_)
  show arg1.view.read (Elt Ideal) X ((Rect.unit (s := S2x2048x256) (k0_off1 k) S1x2048x256.size (k0_off1_inb k)).toLoadRect.idx (ix3 (0 : Fin 1) t j)) = _
  refine congrArg (arg1.view.read (Elt Ideal) X) (funext fun a => Fin.ext ?_)
  match a with
  | ⟨0, _⟩ =>
    show k0_off1 k 0 + 1 * 0 = (((Rect.unit (s := S2x8x256) (k0_off2 k) S1x8x256.size (k0_off2_inb k)).emb (ix3 u c' d)) 0).val
    rw [e0, h1]; show k.val + 1 * 0 = k.val; omega
  | ⟨1, _⟩ =>
    show k0_off1 k 1 + 1 * t.val = t.val
    rw [h1]; show 0 + 1 * t.val = t.val; omega
  | ⟨2, _⟩ =>
    show k0_off1 k 2 + 1 * j.val = j.val
    rw [h1]; show 0 + 1 * j.val = j.val; omega

/-- Every piece of the first `n` trips is `blockOf` on its rectangle: by induction over the trips. -/
theorem pieces_restrict (𝒱 : Variants) (c : Dev nD) (bd : Option 𝒱.V) (i : grid0.Coords)
    (arg1 : Memref sig .tc .vmem S2x2048x256 .f32) (harg1 : arg1.IsWhole) (arg2 : Memref sig .tc .vmem S8x256 .f32) (harg2 : arg2.IsWhole)
    (arg3 : Memref sig .tc .vmem S8 .f32) (harg3 : arg3.IsWhole) (arg4 : Memref sig .tc .vmem S2x8x256 .f32) (harg4 : arg4.IsWhole)
    (v0 : FVec Ideal S8x256 .f32) (v1 : FVec Ideal S8 .f32) (X : BufTy.Contents (Elt Ideal) arg1.view.ty) (n : ℕ) :
    ∀ p ∈ pb_k0_t1 (F := Ideal) 𝒱 c bd i arg1 harg1 arg2 harg2 arg3 harg3 arg4 harg4 v0 v1 X n,
      ∀ x : p.1.shape.Idx, p.2 x = blockOf (arg1.view.read (Elt Ideal) X) v0 v1 (p.1.emb x) := by
  induction n with
  | zero =>
    intro p hp
    rw [pb_k0_t1.eq_1] at hp
    exact absurd hp List.not_mem_nil
  | succ n ih =>
    intro p hp
    rw [pb_k0_t1.eq_2] at hp
    unfold pb_k0_t1Step at hp
    split at hp
    · rename_i hlt
      rw [trip_piece, List.singleton_append, List.mem_cons] at hp
      rcases hp with rfl | hp
      · intro x
        exact piece_restricts arg1 v0 v1 X ⟨n, hlt⟩ x
      · exact ih p hp
    · exact ih p hp

/-- A whole-buffer load reads the buffer's contents. -/
theorem read_whole {S : Shape} {e : EltTy} {sp : Space} (m : Memref sig .tc sp S e) (hm : m.IsWhole) (X : S.Idx → Elt Ideal e)
    {off : Fin S.rank → Nat} (hz : off = fun _ => 0) (inb : ∀ a, off a + S.size a ≤ S.size a) :
    View.readAt (Elt Ideal) m.view (Rect.unit off S.size inb).toLoadRect (hm.unread X) = X := by
  rw [View.readAt_eq_ld, hm.read_unread, View.ld_unit_zero hz]

/-- The block a grid point leaves: `blockOf` of the point's input block, centres and scales. -/
theorem out_eq (c : Dev nD) (i : grid0.Coords) (arg1 : Memref sig .tc .vmem S2x2048x256 .f32) (harg1 : arg1.IsWhole)
    (arg2 : Memref sig .tc .vmem S8x256 .f32) (harg2 : arg2.IsWhole) (arg3 : Memref sig .tc .vmem S8 .f32) (harg3 : arg3.IsWhole)
    (arg4 : Memref sig .tc .vmem S2x8x256 .f32) (harg4 : arg4.IsWhole)
    (x0 : Vec Ideal S2x2048x256 .f32) (x1 : Vec Ideal S8x256 .f32) (x2 : Vec Ideal S8 .f32) :
    out0_A_3 (F := Ideal) c i arg1 harg1 arg2 harg2 arg3 harg3 arg4 harg4 x0 x1 x2 = blockOf x0 x1 x2 := by
  funext y
  unfold out0_A_3
  rw [View.read_writes_eq_canon _ _ _ (cover0_A_3 c i arg1 harg1 arg2 harg2 arg3 harg3 arg4 harg4 x0 x1 x2)]
  refine View.canon_apply_of_pieces (blockOf x0 x1 x2) _ ?_ y (cover0_A_3 c i arg1 harg1 arg2 harg2 arg3 harg3 arg4 harg4 x0 x1 x2 y)
  unfold kernelRun0_A
  dsimp only
  rw [read_whole arg2 harg2 x1 (funext fun a => by fin_cases a <;> rfl), read_whole arg3 harg3 x2 (funext fun a => by fin_cases a <;> rfl)]
  have hp := pieces_restrict Variants.none c none i arg1 harg1 arg2 harg2 arg3 harg3 arg4 harg4 x1 x2 (harg1.unread x0)
    (Scf.trips (0#32) (Scalar.addi 0#32 2#32) 1#32)
  rw [harg1.read_unread] at hp
  exact hp

end Cert.Pool.Block

end
-- ==== Proof.KernelValue.lean ====
/-
  The kernel program's result: the array the region leaves, and its flattening by the host operation after the region.

  Grid point `t` is given batches 2t and 2t+1 of the input, the whole centres and the whole scales, and writes back rows
  2t and 2t+1 of the [16, 8, 256] result; what it writes is the pooling function of `Spec` restricted to those rows, because
  the block it leaves is `blockOf` of its input block (`Block.out_eq`) and frame (r, ·, ·) of the input block is frame
  (2t + r, ·, ·) of the input. The eight blocks tile the result (row b lies in the block of point b / 2), so the array ends
  holding the pooling function everywhere; the program's result is its row-major flattening to [16, 2048].
-/
import proofs.«137179_j74783970558328_2_alg».proof.Proof.Gen.KernelIdeal.Frame
import proofs.«137179_j74783970558328_2_alg».proof.Proof.Block
import Idealize.ShloMosaic.Lib.Pipeline.Value
import Idealize.ShloMosaic.Lib.StableHlo.Run
import Idealize.ShloMosaic.Lib.Tactic

set_option maxRecDepth 16384

noncomputable section

open scoped BigOperators

namespace Cert.Pool.KernelValue

open Cert.KernelIdeal Cert.KernelIdeal.Gen Idealize.ShloMosaic Idealize.ShloMosaic.TcCoe Idealize.ShloMosaic.ValueIdx
open Idealize.SL.Sem
open Idealize.ShloMosaic.Pipeline (Dat)
open Cert.Pool.Block

variable (m : (ℓ : Loc nD τ sig) → Buf (Elt Ideal) ℓ) (ρ : Dev nD → PrngReg)

/-- The windows' block indices over the grid: the input and the result move with the point along the batch axis; the
    centres and the scales stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = t.val ∧ win0_3.index t (1 : Fin 3) = 0 ∧ win0_3.index t (2 : Fin 3) = 0 :=
  (by decide +kernel : ∀ t : Fin grid0.N, _)

/-- A block of the pooling function: if `b0` is rows 2p and 2p+1 of the input `X0`, the block function at (r, c, d) is the
    pooling function at (2p + r, c, d). -/
theorem blockOf_eq_result (X0 : S16x2048x256.Idx → EReal) (X1 : S8x256.Idx → EReal) (X2 : S8.Idx → EReal)
    (b0 : S2x2048x256.Idx → EReal) (b1 : S8x256.Idx → EReal) (b2 : S8.Idx → EReal) (p : ℕ) (hp : p < 8)
    (h0 : ∀ (r : Fin 2) (t' : Fin 2048) (k : Fin 256),
      b0 (ix3 r t' k) = X0 (ix3 (⟨2 * p + r.val, by have := r.isLt; omega⟩ : Fin 16) t' k))
    (h1 : b1 = X1) (h2 : b2 = X2) (r : Fin 2) (c' : Fin 8) (d : Fin 256) (e : S16x8x256.Idx)
    (he0 : (e 0).val = 2 * p + r.val) (he1 : (e 1).val = c'.val) (he2 : (e 2).val = d.val) :
    blockOf b0 b1 b2 (ix3 r c' d) = result X0 X1 X2 e := by
  subst h1 h2
  obtain ⟨b, c2, d2, rfl⟩ : ∃ (b : Fin 16) (c2 : Fin 8) (d2 : Fin 256), e = ix3 b c2 d2 := ⟨e 0, e 1, e 2, eq_ix3 e⟩
  obtain rfl : c2 = c' := Fin.ext he1
  obtain rfl : d2 = d := Fin.ext he2
  rw [result_ix3]
  unfold blockOf
  refine congrArg (fun F => pooled F (centresOf b1) (scalesOf b2) c2 d2) (funext fun t' => funext fun k => ?_)
  show b0 (ix3 r t' k) = X0 (ix3 b t' k)
  rw [h0]
  exact congrArg (fun q => X0 (ix3 q t' k)) (Fin.ext he0.symm)

/-- What point `t` writes back is block `t` of the pooling function of the argument arrays. -/
theorem flushed_eq (c : Dev nD) (t : Fin cfg0.N) :
    (dats m 0 c).flushed 3 t
      = ((cfg0.win 3).blk t).view.read (Elt Ideal) (result (V m c main_arg0) (V m c main_arg1) (V m c main_arg2)) := by
  show (cfg0.win 3).cut (grid0.coords t) ((dats m 0 c).after 3 t) = _
  rw [after0_3]
  unfold outsAt0
  rw [out_eq c (grid0.coords t) (ms0_0 t) (hs0_0 t) (ms0_1 t) (hs0_1 t) (ms0_2 t) (hs0_2 t) (ms0_3 t) (hs0_3 t)
    (iblk m c 0 t) (iblk m c 1 t) (iblk m c 2 t)]
  obtain ⟨a0, a1, a2, b0, b1, c0, o0, o1, o2⟩ := idx_facts t
  have hN : cfg0.N = 8 := N_0
  have ht : t.val < 8 := hN ▸ t.isLt
  funext y
  obtain ⟨r, c', d, rfl⟩ : ∃ (r : Fin 2) (c' : Fin 8) (d : Fin 256), y = ix3 r c' d := ⟨y 0, y 1, y 2, eq_ix3 y⟩
  show blockOf (iblk m c 0 t) (iblk m c 1 t) (iblk m c 2 t) (ix3 r c' d)
    = result (V m c main_arg0) (V m c main_arg1) (V m c main_arg2) (((cfg0.win 3).blk t).view.emb (ix3 r c' d))
  refine blockOf_eq_result _ _ _ _ _ _ t.val ht ?_ ?_ ?_ r c' d _ ?_ ?_ ?_
  · intro r' t' k
    show V m c main_arg0 (((cfg0.win 0).blk t).view.emb (ix3 r' t' k)) = V m c main_arg0 _
    refine congrArg (V m c main_arg0) (funext fun a => Fin.ext ?_)
    match a with
    | ⟨0, _⟩ => show win0_0.index t (0 : Fin 3) * 2 + 1 * r'.val = 2 * t.val + r'.val; rw [a0]; omega
    | ⟨1, _⟩ => show win0_0.index t (1 : Fin 3) * 2048 + 1 * t'.val = t'.val; rw [a1]; omega
    | ⟨2, _⟩ => show win0_0.index t (2 : Fin 3) * 256 + 1 * k.val = k.val; rw [a2]; omega
  · funext j
    show V m c main_arg1 (((cfg0.win 1).blk t).view.emb j) = V m c main_arg1 j
    refine congrArg (V m c main_arg1) (funext fun a => Fin.ext ?_)
    match a with
    | ⟨0, _⟩ => show win0_1.index t (0 : Fin 2) * 8 + 1 * (j 0).val = (j 0).val; rw [b0]; omega
    | ⟨1, _⟩ => show win0_1.index t (1 : Fin 2) * 256 + 1 * (j 1).val = (j 1).val; rw [b1]; omega
  · funext j
    show V m c main_arg2 (((cfg0.win 2).blk t).view.emb j) = V m c main_arg2 j
    refine congrArg (V m c main_arg2) (funext fun a => Fin.ext ?_)
    match a with
    | ⟨0, _⟩ => show win0_2.index t (0 : Fin 1) * 8 + 1 * (j 0).val = (j 0).val; rw [c0]; omega
  · show win0_3.index t (0 : Fin 3) * 2 + 1 * r.val = 2 * t.val + r.val; rw [o0]; omega
  · show win0_3.index t (1 : Fin 3) * 8 + 1 * c'.val = c'.val; rw [o1]; omega
  · show win0_3.index t (2 : Fin 3) * 256 + 1 * d.val = d.val; rw [o2]; omega

/-- An index of the result is in point `t`'s block iff each coordinate is in the block's range on its axis. -/
theorem mem_blk (t : Fin cfg0.N) (i : S16x8x256.Idx) :
    i ∈ ((cfg0.win 3).blk t).view.set ↔ ∀ a : Fin 3, win0_3.index t a * S2x8x256.size a ≤ (i a).val
      ∧ (i a).val < win0_3.index t a * S2x8x256.size a + S2x8x256.size a := by
  show i ∈ ((View.whole main_v0).slice (win0_3.rect t)).set ↔ _
  rw [View.set_slice_whole, Rect.mem_set_unit]
  exact Iff.rfl

/-- Every index of the result lies in the block of the point that owns its batch: row `b` in the block of point `b / 2`. -/
theorem covered (i : S16x8x256.Idx) :
    ∃ t : Fin cfg0.N, (cfg0.win 3).flush t = true ∧ i ∈ ((cfg0.win 3).blk t).view.set := by
  have hN : cfg0.N = 8 := N_0
  have hi0 : (i 0).val < 16 := (i 0).isLt
  have hi1 : (i 1).val < 8 := (i 1).isLt
  have hi2 : (i 2).val < 256 := (i 2).isLt
  obtain ⟨t, ht⟩ : ∃ t : Fin cfg0.N, t.val = (i 0).val / 2 := ⟨⟨(i 0).val / 2, by rw [hN]; omega⟩, rfl⟩
  obtain ⟨-, -, -, -, -, -, o0, o1, o2⟩ := idx_facts t
  refine ⟨t, flush0_3 t, ?_⟩
  rw [mem_blk]
  intro a
  match a with
  | ⟨0, _⟩ =>
    show win0_3.index t (0 : Fin 3) * 2 ≤ (i 0).val ∧ (i 0).val < win0_3.index t (0 : Fin 3) * 2 + 2
    rw [o0, ht]; omega
  | ⟨1, _⟩ =>
    show win0_3.index t (1 : Fin 3) * 8 ≤ (i 1).val ∧ (i 1).val < win0_3.index t (1 : Fin 3) * 8 + 8
    rw [o1]; omega
  | ⟨2, _⟩ =>
    show win0_3.index t (2 : Fin 3) * 256 ≤ (i 2).val ∧ (i 2).val < win0_3.index t (2 : Fin 3) * 256 + 256
    rw [o2]; omega

/-- The array the region leaves: the pooling function of the argument arrays. -/
theorem final (c : Dev nD) :
    (dats m 0 c).arrAt 3 cfg0.N = result (V m c main_arg0) (V m c main_arg1) (V m c main_arg2) :=
  (dats m 0 c).arrAt_eq_of_cover 3 _ (fun t _ => flushed_eq m c t) covered

/-- The program's result: the pooling function of the arguments' launch contents, flattened to [16, 2048]. -/
def out (c : Dev nD) : Buf (Elt Ideal) ((c : Thread nD τ).loc main_v1) :=
  shapeCast S16x2048 (result (m ((c : Thread nD τ).loc main_arg0)) (m ((c : Thread nD τ).loc main_arg1))
    (m ((c : Thread nD τ).loc main_arg2))) shapeCasts_S16x8x256_S16x2048

/-- The host operation after the region flattens the region's array. -/
theorem tail_eq (c : Dev nD) : Pipeline.afterTail₀ cfgs (dats m) 0 (V0 m) [hostOps1] c main_v1 = out m c := by
  unfold Pipeline.afterTail₀
  show StableHlo.after hostOps1 _ (Proc.devRef .tc main_v1) = _
  after_results
  have h3 := (Pipeline.withArrays_arr spec0 launch0.win.arr_inj c (V0 m c) (fun w => (dats m 0 c).arrAt w (cfgs 0).N) 3).trans
    (final m c)
  funext i
  exact congrFun (congrArg (fun X => shapeCast S16x2048 X shapeCasts_S16x8x256_S16x2048) h3) i

/-- The program's result buffer is no array of the pipeline: it bypasses the region and is written by the line after it. -/
theorem result_mem : main_v1 ∈ Pipeline.restRefs sig (cfgs 0).spec :=
  Pipeline.mem_restRefs_of main_v1 rfl (fun w => by fin_cases w <;> decide)

/-- The run, read: every weakly fair execution terminates with the result at the flattened pooling function of the
    arguments, the arguments unchanged. -/
theorem run : θ_run defs (onTc (τ := τ) (main (F := Ideal))) ⟨m, fun _ => 0, ρ⟩ fun r => ∀ c : Dev nD,
      r.2.mem ((c : Thread nD τ).loc main_v1) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).2 main_v1 result_mem).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Pool.KernelValue

end
-- ==== Proof.lean ====
/-
  Soft-assignment residual pooling: a kernel that streams sixteen batches of 2048 frames through eight centres, two
  batches per grid point, against its plain array-language reference.

  Both programs compute, for each batch, the squared distances |x|² − 2⟨x, c⟩ + |c|² of every frame to every centre, the
  logits −s·dist, the softmax of each frame's eight logits (shifted by their maximum), and the pooled residuals
  Σ_t a(t, c)·x(t, d) − (Σ_t a(t, c))·c(d), and flatten the [16, 8, 256] result to [16, 2048]. On the extended reals the two
  are ONE function of the arguments (`Spec.result`): the kernel keeps centres on the rows and frames on the columns where
  the reference keeps frames first, which only renames the index of each sum; it forms the cross term as ⟨c, x⟩ instead of
  ⟨x, c⟩ (commutativity of the product under the sum) and negates the scale as 0 − s (equal to −s on every extended
  real); its changes of float format are the identity at the ideal values. No step needs the inputs to be finite.

  The kernel side: one loop trip's stored value at an index (`Payload`), the block a grid point leaves (`Block`), the
  array the eight points leave and its flattening by the host (`KernelValue`). The reference side: its stages read at an
  index (`RefRead`). The frames of the two kernel programs are the generated ones; the reference's frame is its run.
  The kernel's idealization rewrote nothing, so `preserves` is trivial.
-/
import proofs.«137179_j74783970558328_2_alg».proof.Defs
import proofs.«137179_j74783970558328_2_alg».proof.Proof.Gen.Kernel
import proofs.«137179_j74783970558328_2_alg».proof.Proof.Gen.Kernel.Skeleton
import proofs.«137179_j74783970558328_2_alg».proof.Proof.Gen.Kernel.Loops
import proofs.«137179_j74783970558328_2_alg».proof.Proof.Gen.Kernel.Launch
import proofs.«137179_j74783970558328_2_alg».proof.Proof.Gen.Kernel.Points
import proofs.«137179_j74783970558328_2_alg».proof.Proof.Gen.Kernel.Frame
import proofs.«137179_j74783970558328_2_alg».proof.Proof.Gen.KernelIdeal
import proofs.«137179_j74783970558328_2_alg».proof.Proof.Gen.KernelIdeal.Skeleton
import proofs.«137179_j74783970558328_2_alg».proof.Proof.Gen.KernelIdeal.Loops
import proofs.«137179_j74783970558328_2_alg».proof.Proof.Gen.KernelIdeal.Launch
import proofs.«137179_j74783970558328_2_alg».proof.Proof.Gen.KernelIdeal.Points
import proofs.«137179_j74783970558328_2_alg».proof.Proof.Gen.KernelIdeal.Frame
import proofs.«137179_j74783970558328_2_alg».proof.Proof.Gen.ReferenceIdeal
import proofs.«137179_j74783970558328_2_alg».proof.Proof.Gen.Pre_finite_inputs
import proofs.«137179_j74783970558328_2_alg».proof.Proof.Gen.ReferenceIdeal.Run
import proofs.«137179_j74783970558328_2_alg».proof.Proof.Gen.ReferenceIdeal.Read
import proofs.«137179_j74783970558328_2_alg».proof.Proof.RefRead
import proofs.«137179_j74783970558328_2_alg».proof.Proof.KernelValue
import Idealize.ShloMosaic.Adequacy
import Idealize.ShloMosaic.Init

noncomputable section

namespace Cert.Proof

open Idealize.ShloMosaic Idealize.SL.Sem

/-- The word-level kernel and its idealization run, fault nothing and keep their arguments: the generated frames. -/
theorem frame_kernel : Cert.frame_Kernel := fun m ρ _ => Cert.Kernel.Gen.frame m ρ
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories that agree on the arguments, both programs end with the flattened pooling function of the arguments. -/
theorem algebraic : Cert.algebraic_KernelIdeal_ReferenceIdeal := by
  intro m ρ m' ρ' _ hagree
  refine ⟨fun c => Cert.Pool.KernelValue.out m c, Cert.Pool.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, (hagree c).1, (hagree c).2.1, (hagree c).2.2]
  unfold Cert.ReferenceIdeal.Read.val_main_v36
  rw [Cert.Pool.Ref.result_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
